-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x256 : Shape := ⟨2, ![128, 256]⟩
abbrev S_ : Shape := ⟨0, ![]⟩
abbrev S1x1600000 : Shape := ⟨2, ![1, 1600000]⟩
abbrev S1600000 : Shape := ⟨1, ![1600000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  slices_S2x1600000_S1x1600000_1_0 : S2x1600000.Slices ![1, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn {F : FTy → Type} [FloatOps F] (main_arg0 : FVec F S100000x128 .f32) (main_arg1 : IVec S2x1600000 32) (main_arg2 : FVec F S128x256 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : IVec S1x1600000 32 := (extractStridedSlice S1x1600000 ![1, 0] · slices_S2x1600000_S1x1600000_1_0) main_arg1
  let main_v10 : IVec S1600000 32 := shapeCast S1600000 main_v9 shapeCasts_S1x1600000_S1600000
  let main_c_2 : IVec S_ 32 := constantI S_ 32 0#32
  let main_v11 : IVec S1600000 32 := broadcastInDim S1600000 ![] bcast_S_S1600000 main_c_2
  let main_v12 : IVec S1600000 1 := cmpi .sge main_v10 main_v11
  let main_c_3 : IVec S_ 1 := constantI S_ 1 1#1
  let main_v13 : IVec S_ 1 := (fun x v => Host.reduce IntOp.andi x v reducesTo_S1600000_S_d0 h_S_) main_v12 main_c_3
  let main_v14 : IVec S_ 1 := andi main_v8 main_v13
  main_v14
-- ==== Kernel.lean ====
abbrev S100000x128 : Shape := ⟨2, ![100000, 128]⟩
abbrev S2x1600000 : Shape := ⟨2, ![2, 1600000]⟩
abbrev S128x256 : Shape := ⟨2, ![128, 256]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000x256 : Shape := ⟨2, ![100000, 256]⟩
abbrev S5000x128 : Shape := ⟨2, ![5000, 128]⟩
abbrev S5000x256 : Shape := ⟨2, ![5000, 256]⟩

abbrev nBuf : Space → Nat
  | .hbm => 26
  | .vmem => 5
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x256, .f32⟩
  | .hbm, ⟨3, _⟩ => ⟨S1x1600000, .i32⟩
  | .hbm, ⟨4, _⟩ => ⟨S1600000, .i32⟩
  | .hbm, ⟨5, _⟩ => ⟨S1x1600000, .i32⟩
  | .hbm, ⟨6, _⟩ => ⟨S1600000, .i32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x128, .f32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S100000x128, .f32⟩
  | .hbm, ⟨25, _⟩ => ⟨S100000x256, .f32⟩
  | .local _ .vmem, ⟨0, _⟩ => ⟨S5000x128, .f32⟩
  | .local _ .vmem, ⟨1, _⟩ => ⟨S5000x128, .f32⟩
  | .local _ .vmem, ⟨2, _⟩ => ⟨S128x256, .f32⟩
  | .local _ .vmem, ⟨3, _⟩ => ⟨S5000x256, .f32⟩
  | .local _ .vmem, ⟨4, _⟩ => ⟨S5000x256, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_c_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S5000x256_S5000x256_0_0 : ∀ a, (![0, 0] : Fin 2 → Nat) a + S5000x256.size a ≤ S5000x256.size a
  h_S5000x256 : 0 < S5000x256.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x256_S5000x256_1_0_0_1_n_n_wf : DotDims.WF S5000x128 S128x256 S5000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S100000x256.size a
  hwx0_2 : ∀ i : grid0.Coords, EltTy.bits .f32 = 32 ∨ (Rect.block (s := S100000x256) S5000x256.size (cc0_transform_2 i) (hinb0_2 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf

abbrev win0_0 : Pipeline.Window sig grid0 :=
  Pipeline.Window.ofSpec (Memref.whole main_v17) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v18) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x256 : Shape := ⟨2, ![128, 256]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000x256 : Shape := ⟨2, ![100000, 256]⟩

abbrev nBuf : Space → Nat
  | .hbm => 25
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x256, .f32⟩
  | .hbm, ⟨3, _⟩ => ⟨S1x1600000, .i32⟩
  | .hbm, ⟨4, _⟩ => ⟨S1600000, .i32⟩
  | .hbm, ⟨5, _⟩ => ⟨S1x1600000, .i32⟩
  | .hbm, ⟨6, _⟩ => ⟨S1600000, .i32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x128, .f32⟩
  | .hbm, ⟨16, _⟩ => ⟨S_, .f32⟩
  | .hbm, ⟨17, _⟩ => ⟨S100000x128, .f32⟩
  | .hbm, ⟨18, _⟩ => ⟨S1600000x1, .i32⟩
  | .hbm, ⟨19, _⟩ => ⟨S100000x128, .f32⟩
  | .hbm, ⟨20, _⟩ => ⟨S100000x128, .f32⟩
  | .hbm, ⟨21, _⟩ => ⟨S100000x256, .f32⟩
  | .hbm, ⟨22, _⟩ => ⟨S_, .f32⟩
  | .hbm, ⟨23, _⟩ => ⟨S100000x256, .f32⟩
  | .hbm, ⟨24, _⟩ => ⟨S100000x256, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_call0_cst : Ref sig .tc := ⟨.hbm, 22, rfl⟩
abbrev main_call0_v0 : Ref sig .tc := ⟨.hbm, 23, rfl⟩
abbrev main_v16 : Ref sig .tc := ⟨.hbm, 24, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000x256 : S_.BroadcastsInDim S100000x256 (![] : Fin 0 → Fin S100000x256.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x256_S100000x256_1_0_0_1_n_n_wf : DotDims.WF S100000x128 S128x256 S100000x256 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf

class Facts : Prop extends Facts₀ where

variable [Facts]
-- ==== Proof.GcnLayer.lean ====
/-
  The mathematics both programs share.

  A graph-convolution layer on N = 100000 nodes: each node's 128 features are combined with the
  features sent along the edges that end at it, the combined features are multiplied by a 128 × 256
  weight matrix, and negative entries are replaced by zero. `layer C W` is the last two steps as one
  function of the combined array `C`: entry (r, c) is max (∑ k, C (r, k) · W (k, c)) 0.

  The two programs differ only in how `C` is accumulated. One adds the edge messages into the node
  features themselves; the other adds them into an array of zeros and then adds the node features.
  Over the extended reals these agree entry by entry, because the sum of the messages landing on an
  entry is the same finite sum in both and 0 + x = x (`scatterAdd_eq_add_scatterAdd_zero`): no
  cancellation is used, so no entry needs to be finite.

  One program also replaces a negative target index d by d + N before accumulating. For a target
  index that is not negative this changes nothing (`wrap_of_nonneg`).
-/
import Idealize.ShloMosaic.PureOps.Ideal
import Idealize.ShloMosaic.PureOps.Ideal.Laws
import Idealize.ShloMosaic.Lib.ValueIdx

noncomputable section

namespace Cert.GcnLayer

open Idealize.ShloMosaic Idealize.ShloMosaic.ValueIdx

/-- Entry (r, c) of relu (C · W): the row r of `C` against the column c of `W`, then the maximum with zero. -/
def layer (C : (⟨2, ![100000, 128]⟩ : Shape).Idx → EReal) (W : (⟨2, ![128, 256]⟩ : Shape).Idx → EReal) :
    (⟨2, ![100000, 256]⟩ : Shape).Idx → EReal :=
  fun i => max (∑ k : Fin 128, C (ix2 (i 0) k) * W (ix2 k (i 1))) (Ideal.ofBits .f32 0x00000000#32)

/-- Accumulating updates into `H` is `H` plus accumulating the same updates, at the same indices, into an
    array of zeros: at each entry both are `H i` plus the sum of the updates landing on `i`. -/
theorem scatterAdd_eq_add_scatterAdd_zero {s si su : Shape} (d : ScatterDims s si su) {w : Nat}
    (H Z : FVec Ideal s .f32) (idx : IVec si w) (U : FVec Ideal su .f32) (hZ : ∀ i, Z i = 0) :
    Host.scatterAdd d H idx U = addf H (Host.scatterAdd d Z idx U) := by
  funext i
  simp only [Host.scatterAdd, Ideal.hostScatterAdd_def, Ideal.hostScatterAdd, addf, Ideal.addf_def, hZ, zero_add]

/-- A 32-bit word that is at least zero as a signed number is not below zero as a signed number. -/
theorem not_slt_zero_of_sge_zero (w : BitVec 32) (h : IntOp.cmpi .sge w 0#32 = 1#1) :
    IntOp.cmpi .slt w 0#32 ≠ 1#1 := by
  unfold IntOp.cmpi at h ⊢
  have h0 : (0#32 : BitVec 32).toInt = 0 := by decide
  simp only [BitVec.slt, BitVec.sle, h0] at h ⊢
  by_cases hw : w.toInt < 0
  · have hn : ¬ (0 : Int) ≤ w.toInt := not_le.mpr hw
    rw [decide_eq_false hn] at h
    exact absurd h (by decide)
  · rw [decide_eq_false hw]
    decide

/-- Replacing each negative index `x e` by `x e + n e` leaves an index array with no negative entry unchanged. -/
theorem wrap_of_nonneg {s : Shape} (x z n : IVec s 32) (hz : ∀ e, z e = 0#32)
    (hx : ∀ e, IntOp.cmpi .sge (x e) 0#32 = 1#1) :
    select (cmpi .slt x z) (addi x n) x = x := by
  funext e
  show Scalar.select (IntOp.cmpi .slt (x e) (z e)) (IntOp.addi (x e) (n e)) (x e) = x e
  rw [hz e]
  unfold Scalar.select
  exact if_neg (not_slt_zero_of_sge_zero (x e) (hx e))

end Cert.GcnLayer

end
-- ==== Proof.LibPlainMatmul.lean ====
/-
  A plain matrix product read at an entry, over the extended reals.

  For dimension numbers that contract the left operand's columns with the right operand's rows and have
  no batch axes (`[1] × [0]`, free axes `[0]` and `[1]`), an `M × K` by `K × N` product accumulated into
  the zero matrix is, at entry `(a, b)`, the sum over `k` of `l (a, k) · r (k, b)`. The statement takes
  the dimension-number record as a variable with its six lists given by hypotheses, so it applies to any
  printed record of this form, whatever its name and extents.
-/
import Idealize.ShloMosaic.PureOps.Ideal.Laws
import Idealize.ShloMosaic.Lib.ValueIdx

noncomputable section

namespace Cert.LibPlainMatmul

open Idealize.ShloMosaic Idealize.ShloMosaic.ValueIdx

variable {M K N : Nat} (D : DotDims ⟨2, ![M, K]⟩ ⟨2, ![K, N]⟩ ⟨2, ![M, N]⟩)

/-- With no batch axes and left free axis `0`, the left operand's row is the result's row. -/
theorem lhs_row (hln : D.lhsNonContracting = [0]) (hlb : D.lhsBatch = [])
    (j : (⟨2, ![M, N]⟩ : Shape).Idx) (q : D.contr.Idx) : (D.lhsIdx j q 0).val = (j 0).val := by
  unfold DotDims.lhsIdx
  rw [dif_neg (by rw [hlb]; exact List.not_mem_nil), dif_pos (by rw [hln]; exact List.mem_singleton.mpr rfl)]
  simp only [Fin.val_cast]
  have key : ∀ (p p' : Nat) (hp : p < (⟨2, ![M, N]⟩ : Shape).rank) (hp' : p' < (⟨2, ![M, N]⟩ : Shape).rank), p = p' →
      (j ⟨p, hp⟩).val = (j ⟨p', hp'⟩).val := fun p p' hp hp' h => by subst h; rfl
  exact key _ _ _ _ (by simp [hlb, hln])

/-- With no batch axes, one left free axis and right free axis `1`, the right operand's column is the result's column. -/
theorem rhs_col (hln : D.lhsNonContracting = [0]) (hrn : D.rhsNonContracting = [1]) (hlb : D.lhsBatch = [])
    (hrb : D.rhsBatch = []) (j : (⟨2, ![M, N]⟩ : Shape).Idx) (q : D.contr.Idx) : (D.rhsIdx j q 1).val = (j 1).val := by
  unfold DotDims.rhsIdx
  rw [dif_neg (by rw [hrb]; exact List.not_mem_nil), dif_pos (by rw [hrn]; exact List.mem_singleton.mpr rfl)]
  simp only [Fin.val_cast]
  have key : ∀ (p p' : Nat) (hp : p < (⟨2, ![M, N]⟩ : Shape).rank) (hp' : p' < (⟨2, ![M, N]⟩ : Shape).rank), p = p' →
      (j ⟨p, hp⟩).val = (j ⟨p', hp'⟩).val := fun p p' hp hp' h => by subst h; rfl
  exact key _ _ _ _ (by simp [hlb, hln, hrn])

/-- The one contracted axis has extent `K`. -/
theorem contr_rank (hlc : D.lhsContracting = [1]) : D.contr.rank = 1 := by rw [D.rank_contr, hlc]; rfl

theorem contr_size (hlc : D.lhsContracting = [1]) :
    D.contr.size ⟨0, by rw [contr_rank D hlc]; exact Nat.one_pos⟩ = K := by
  rw [D.size_contr 0 (by rw [hlc]; exact Nat.one_pos)]
  simp [hlc]

/-- A plain `M × K` by `K × N` product into the zero matrix, at entry `(a, b)`: `∑ k, l (a, k) · r (k, b)`. -/
theorem matmul_zero_apply {φ₁ φ₂ : FTy}
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![M, K]⟩ φ₁) (r : FVec Ideal ⟨2, ![K, N]⟩ φ₂)
    (a : Fin M) (b : Fin N) :
    FloatOps.matmul D prec l r (constant (F := Ideal) ⟨2, ![M, N]⟩ .f32 0x00000000#32) (ix2 a b)
      = ∑ k : Fin K, l (ix2 a k) * r (ix2 k b) := by
  rw [Ideal.matmul_constant_zero_apply,
    ← Equiv.sum_comp (contrEquiv1 D K (contr_rank D hlc) (contr_size D hlc)).symm]
  refine Finset.sum_congr rfl fun k _ => ?_
  have hk := contrEquiv1_symm_val D K (contr_rank D hlc) (contr_size D hlc) k
  have el : D.lhsIdx (ix2 a b) ((contrEquiv1 D K (contr_rank D hlc) (contr_size D hlc)).symm k) = ix2 a k :=
    funext fun c => Fin.ext (by
      match c with
      | ⟨0, _⟩ => exact lhs_row D hln hlb _ _
      | ⟨1, _⟩ => exact (D.lhsIdx_val_of_single hlc _ _).trans hk)
  have er : D.rhsIdx (ix2 a b) ((contrEquiv1 D K (contr_rank D hlc) (contr_size D hlc)).symm k) = ix2 k b :=
    funext fun c => Fin.ext (by
      match c with
      | ⟨0, _⟩ => exact (D.rhsIdx_val_of_single hrc _ _).trans hk
      | ⟨1, _⟩ => exact rhs_col D hln hrn hlb hrb _ _)
  rw [el, er]

end Cert.LibPlainMatmul

end
-- ==== Proof.Tile.lean ====
/-
  One tile of the kernel, read at an entry.

  At a grid point the kernel body loads a 5000 × 128 block `x0` of the combined features and the whole
  128 × 256 weight matrix `x1`, narrows both to bf16 (the identity on extended reals), multiplies them
  into a zero accumulator and takes the maximum with zero. So entry (p, q) of what it stores is
  max (∑ k, x0 (p, k) · x1 (k, q)) 0.
-/
import proofs.«170774_j30116310679886_2_alg».proof.Proof.Gen.KernelIdeal.Skeleton
import proofs.«170774_j30116310679886_2_alg».proof.Proof.LibPlainMatmul
import Idealize.ShloMosaic.Lib.Pipeline.Value
import Idealize.ShloMosaic.Lib.ValueIdx

noncomputable section

namespace Cert.KernelIdeal.Tile

open Cert.KernelIdeal Cert.KernelIdeal.Gen Idealize.ShloMosaic Idealize.ShloMosaic.ValueIdx

/-- Entry (p, q) of the stored tile: row p of the feature block against column q of the weights, then max with 0. -/
theorem tile_apply (x0 : Vec Ideal S5000x128 .f32) (x1 : Vec Ideal S128x256 .f32) (p : Fin 5000) (q : Fin 256) :
    k0_pay1 (F := Ideal) x0 x1 (ix2 p q)
      = max (∑ k : Fin 128, x0 (ix2 p k) * x1 (ix2 k q)) (Ideal.ofBits .f32 0x00000000#32) := by
  unfold k0_pay1
  rw [maximumf_apply, broadcast_apply, shapeCast_self]
  refine congrArg₂ max ?_ rfl
  exact Cert.LibPlainMatmul.matmul_zero_apply (M := 5000) (K := 128) (N := 256)
    dot_S5000x128_S128x256_S5000x256_1_0_0_1_n_n rfl rfl rfl rfl rfl rfl none
    (truncf .bf16 x0 bitsLt_bf16_f32) (truncf .bf16 x1 bitsLt_bf16_f32) p q

end Cert.KernelIdeal.Tile

end
-- ==== Proof.OutputArray.lean ====
/-
  From the tiles to the whole output array.

  The launch runs over 20 grid points. Point t loads rows 5000·t … 5000·t + 4999 of the combined feature
  array and the whole weight matrix, and writes rows 5000·t … 5000·t + 4999 of the output. By `Tile.tile_apply`
  the tile it writes is the same rows of `GcnLayer.layer C W` (`flushed_eq_layer`): entry (p, q) of the tile is
  max (∑ k, C (5000·t + p, k) · W (k, q)) 0. The 20 blocks of 5000 rows cover all 100000 rows (`covered`: row r
  is in the block of point r / 5000), so after the launch the output array IS `layer C W` (`output_eq_layer`).
-/
import proofs.«170774_j30116310679886_2_alg».proof.Proof.Gen.KernelIdeal.Value
import proofs.«170774_j30116310679886_2_alg».proof.Proof.Tile
import proofs.«170774_j30116310679886_2_alg».proof.Proof.GcnLayer
import Idealize.ShloMosaic.Lib.Pipeline.Value
import Idealize.ShloMosaic.Lib.ValueIdx
import Idealize.ShloMosaic.PureOps.Ideal

noncomputable section

namespace Cert.KernelIdeal.OutputArray

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The block indices at point t, decided over the 20 points: the feature block and the output block are the same
    row block, every column block is block 0, and the row block index is at most 19. -/
theorem block_indices : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 19 :=
  (by decide +kernel : ∀ t : Fin grid0.N, _)

/-- Every one of the 20 row blocks is some point's output block. -/
theorem block_onto : ∀ q0 : Fin 20, ∃ t : Fin cfg0.N, win0_2.index t = ![q0.val, 0] :=
  (by decide +kernel : ∀ q0 : Fin 20, ∃ t : Fin grid0.N, win0_2.index t = ![q0.val, 0])

/-- What point t writes back is rows 5000·t … of `layer C W`, with `C` and `W` the launch's two operands. -/
theorem flushed_eq_layer (c : Dev nD) (t : Fin cfg0.N) :
    (dats m 0 c).flushed 2 t
      = ((cfg0.win 2).blk t).view.read (Elt Ideal) (Cert.GcnLayer.layer (V m c main_v17) (V m c main_arg2)) := by
  show (cfg0.win 2).cut (grid0.coords t) ((dats m 0 c).after 2 t) = _
  rw [after0_2]
  unfold out0_2
  rw [View.canon_unit_zero zero_offsets]
  simp only [View.ld_unit_zero (S := S5000x128) zero_offsets, View.ld_unit_zero (S := S128x256) zero_offsets]
  obtain ⟨e0, e1, e2, e3, e4, -⟩ := block_indices t
  funext j
  obtain ⟨p, q, rfl⟩ : ∃ (p : Fin 5000) (q : Fin 256), j = ix2 p q := ⟨j 0, j 1, eq_ix2 j⟩
  show k0_pay1 (iblk m c 0 t) (iblk m c 1 t) (ix2 p q)
    = Cert.GcnLayer.layer (V m c main_v17) (V m c main_arg2) (((cfg0.win 2).blk t).view.emb (ix2 p q))
  refine (Cert.KernelIdeal.Tile.tile_apply (iblk m c 0 t) (iblk m c 1 t) p q).trans ?_
  unfold Cert.GcnLayer.layer
  refine congrArg₂ max (Finset.sum_congr rfl fun k _ => congrArg₂ (· * ·) ?_ ?_) rfl
  · -- the feature block's entry (p, k) is the array's entry (row of the output entry, k)
    show V m c main_v17 (((cfg0.win 0).blk t).view.emb (ix2 p k)) = V m c main_v17 _
    refine congrArg (V m c main_v17) (funext fun a => Fin.ext ?_)
    match a with
    | ⟨0, _⟩ =>
      show win0_0.index t (0 : Fin 2) * 5000 + 1 * p.val = win0_2.index t (0 : Fin 2) * 5000 + 1 * p.val
      omega
    | ⟨1, _⟩ =>
      show win0_0.index t (1 : Fin 2) * 128 + 1 * k.val = k.val
      omega
  · -- the weight block is the whole matrix: its entry (k, q) is the array's entry (k, column of the output entry)
    show V m c main_arg2 (((cfg0.win 1).blk t).view.emb (ix2 k q)) = V m c main_arg2 _
    refine congrArg (V m c main_arg2) (funext fun a => Fin.ext ?_)
    match a with
    | ⟨0, _⟩ =>
      show win0_1.index t (0 : Fin 2) * 128 + 1 * k.val = k.val
      omega
    | ⟨1, _⟩ =>
      show win0_1.index t (1 : Fin 2) * 256 + 1 * q.val = win0_2.index t (1 : Fin 2) * 256 + 1 * q.val
      omega

/-- An index of the output array is in point t's block iff each coordinate is in the block's range on its axis. -/
theorem mem_block (t : Fin cfg0.N) (i : S100000x256.Idx) :
    i ∈ ((cfg0.win 2).blk t).view.set ↔ ∀ a : Fin 2, win0_2.index t a * S5000x256.size a ≤ (i a).val
      ∧ (i a).val < win0_2.index t a * S5000x256.size a + S5000x256.size a := by
  show i ∈ ((View.whole main_v18).slice (win0_2.rect t)).set ↔ _
  rw [View.set_slice_whole, Rect.mem_set_unit]
  exact Iff.rfl

/-- Every output index is in the block of the point that owns its row: row r belongs to point r / 5000. -/
theorem covered (i : S100000x256.Idx) :
    ∃ t : Fin cfg0.N, (cfg0.win 2).flush t = true ∧ i ∈ ((cfg0.win 2).blk t).view.set := by
  have hi0 : (i 0).val < 100000 := (i 0).isLt
  have hi1 : (i 1).val < 256 := (i 1).isLt
  obtain ⟨t, ht⟩ := block_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_block]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 256 ≤ (i 1).val ∧ (i 1).val < win0_2.index t (1 : Fin 2) * 256 + 256
    omega

/-- After the launch the output array is `layer C W` of the launch's two operands. -/
theorem output_eq_layer (c : Dev nD) :
    (dats m 0 c).arrAt 2 cfg0.N = Cert.GcnLayer.layer (V m c main_v17) (V m c main_arg2) :=
  (dats m 0 c).arrAt_eq_of_cover 2 _ (fun t _ => flushed_eq_layer m c t) (covered)

end Cert.KernelIdeal.OutputArray

end
-- ==== Proof.HostPrefix.lean ====
/-
  The combined feature array the kernel's launch finds.

  Before the launch the host computes, from the node features `H` (N × 128) and the edge list `E` (2 × 1600000):
  the source indices (row 0 of `E`) and the target indices (row 1 of `E`), each with a negative index d
  replaced by d + N; the messages, row `src e` of `H` for each edge `e`; and the messages accumulated into
  `H` itself at the target rows. `combined H E` is that array, and it is what the launch's first operand holds.
-/
import proofs.«170774_j30116310679886_2_alg».proof.Proof.Gen.KernelIdeal.Frame
import Idealize.ShloMosaic.Lib.StableHlo.Run
import Idealize.ShloMosaic.PureOps.Ideal

noncomputable section

namespace Cert.KernelIdeal.HostPrefix

open Cert.KernelIdeal Cert.KernelIdeal.Gen
open Idealize.ShloMosaic Idealize.ShloMosaic.TcCoe Idealize.SL.Sem Idealize.ShloMosaic.StableHlo

/-- Row `row` of the edge list as a vector of 1600000 indices. -/
def edgeRow (off : Fin 2 → Nat) (h : S2x1600000.Slices off S1x1600000) (E : IVec S2x1600000 32) : IVec S1600000 32 :=
  shapeCast S1600000 (extractStridedSlice S1x1600000 off E h) shapeCasts_S1x1600000_S1600000

/-- An index vector with each negative entry d replaced by d + 100000. -/
def wrapped (x : IVec S1600000 32) : IVec S1600000 32 :=
  select (cmpi .slt x (broadcastInDim S1600000 ![] bcast_S_S1600000 (constantI S_ 32 0#32)))
    (addi x (broadcastInDim S1600000 ![] bcast_S_S1600000 (constantI S_ 32 100000#32))) x

/-- The messages: for each edge, the row of `H` at its (wrapped) source index. -/
def messages (H : FVec Ideal S100000x128 .f32) (E : IVec S2x1600000 32) : FVec Ideal S1600000x128 .f32 :=
  Host.gather gather_S100000x128_S1600000x1_S1600000x128_1_0_n_n_0_1_1128 H
    (broadcastInDim S1600000x1 ![0] bcast_S1600000_S1600000x1_0
      (wrapped (edgeRow ![0, 0] slices_S2x1600000_S1x1600000_0_0 E)))

/-- The messages accumulated into `H` at the (wrapped) target rows. -/
def combined (H : FVec Ideal S100000x128 .f32) (E : IVec S2x1600000 32) : FVec Ideal S100000x128 .f32 :=
  Host.scatterAdd scatter_S100000x128_S1600000x1_S1600000x128_1_0_0_1 H
    (broadcastInDim S1600000x1 ![0] bcast_S1600000_S1600000x1_0
      (wrapped (edgeRow ![1, 0] slices_S2x1600000_S1x1600000_1_0 E)))
    (messages H E)

variable (m : (ℓ : Loc nD τ sig) → Buf (Elt Ideal) ℓ)

/-- When the launch starts, its first operand holds `combined` of the feature and edge arguments as launched. -/
theorem V_combined (c : Dev nD) :
    (V m c main_v17 : S100000x128.Idx → EReal)
      = combined (m ((c : Thread nD τ).loc main_arg0)) (m ((c : Thread nD τ).loc main_arg1)) := by
  dsimp only [Gen.V, Gen.hostOps0]
  after_results_simp
  rfl

end Cert.KernelIdeal.HostPrefix

end
-- ==== Proof.RefLayer.lean ====
/-
  The reference program's result as the layer of its combined array.

  The reference adds the node features to the messages accumulated into zeros, multiplies the sum by the
  weight matrix (a product contracting the 128 feature columns) and takes the maximum with a zero spread
  over the whole result. Read at entry (r, c) that is max (∑ k, C (r, k) · W (k, c)) 0 with `C` the
  reference's combined array: `GcnLayer.layer`.
-/
import proofs.«170774_j30116310679886_2_alg».proof.Proof.Gen.ReferenceIdeal.Read
import proofs.«170774_j30116310679886_2_alg».proof.Proof.GcnLayer

noncomputable section

namespace Cert.ReferenceIdeal.RefLayer

open Cert.ReferenceIdeal Cert.ReferenceIdeal.Gen Cert.ReferenceIdeal.Read
open Idealize.ShloMosaic Idealize.ShloMosaic.ValueIdx

/-- The reference's result, entry by entry, is relu (C · W) of its combined array `C` and the weights. -/
theorem result_eq_layer (x0 : (⟨S100000x128, .f32⟩ : BufTy).Contents (Elt Ideal))
    (x1 : (⟨S2x1600000, .i32⟩ : BufTy).Contents (Elt Ideal)) (x2 : (⟨S128x256, .f32⟩ : BufTy).Contents (Elt Ideal)) :
    val_main_v16 (F := Ideal) x0 x1 x2 = Cert.GcnLayer.layer (val_main_v14 (F := Ideal) x0 x1) x2 := by
  funext i
  -- the product's left operand is read at (row of i, k), its right operand at (k, column of i)
  have el : ∀ k : Fin 128, lidx_main_v15 i k = ix2 (i 0) k := fun k => funext fun a => by
    match a with
    | ⟨0, _⟩ => rfl
    | ⟨1, _⟩ => rfl
  have er : ∀ k : Fin 128, ridx_main_v15 i k = ix2 k (i 1) := fun k => funext fun a => by
    match a with
    | ⟨0, _⟩ => rfl
    | ⟨1, _⟩ => rfl
  rw [val_main_v16_apply, val_main_v15_apply, val_main_call0_v0_apply, val_main_call0_cst_apply]
  simp only [el, er, Ideal.maximumf_def, Ideal.ofBits_def]
  rfl

end Cert.ReferenceIdeal.RefLayer

end
-- ==== Proof.Domain.lean ====
/-
  What the precondition says about the edge list.

  The precondition is one bit: every node feature is finite, every weight is finite, and every target index
  (row 1 of the edge list) is at least zero as a signed number. It is printed as a conjunction of three
  "all entries satisfy …" reductions. `targets_nonneg` reads the third one off: for every edge e, the comparison
  "target e ≥ 0" came out true. (The first two conjuncts are not used: the two programs agree as functions on the
  extended reals once the target indices are not negative.)
-/
import proofs.«170774_j30116310679886_2_alg».proof.Pre_finite_inputs
import proofs.«170774_j30116310679886_2_alg».proof.Proof.Gen.Pre_finite_inputs
import Idealize.ShloMosaic.PureOps.Ideal
import Idealize.ShloMosaic.Lib.ReduceAll
import Idealize.ShloMosaic.Lib.Affine
import Idealize.ShloMosaic.Lib.ValueIdx

noncomputable section

namespace Cert.Domain

open Cert.Pre_finite_inputs Cert.Pre_finite_inputs.Facts
open Idealize.ShloMosaic Idealize.ShloMosaic.ValueIdx

/-- The rank-0 shape has one index. -/
instance : Subsingleton S_.Idx := ⟨fun a b => funext fun d => d.elim0⟩

/-- Under the precondition every target index — entry e of row 1 of the edge list — is at least zero, signed. -/
theorem targets_nonneg [Facts] (H : FVec Ideal S100000x128 .f32) (E : IVec S2x1600000 32) (W : FVec Ideal S128x256 .f32)
    (h : fn (F := Ideal) H E W = fun _ => 1#1) (e : S1600000.Idx) :
    IntOp.cmpi .sge
      (shapeCast S1600000 (extractStridedSlice S1x1600000 ![1, 0] E slices_S2x1600000_S1x1600000_1_0)
        shapeCasts_S1x1600000_S1600000 e) 0#32 = 1#1 := by
  have h0 := congrFun h ix0
  dsimp only [fn] at h0
  change IntOp.andi _ _ = 1#1 at h0
  obtain ⟨-, h13⟩ := IntOp.andi_eq_one.1 h0
  exact Host.reduce_andi_all _ _ _ _ _ h13 e

end Cert.Domain

end
-- ==== Proof.Bridge.lean ====
/-
  The two programs accumulate the same combined feature array.

  Both gather the same messages (row `src e` of the node features for each edge `e`, the source indices treated
  alike). The kernel's host code adds them into the node features `H` at the target rows after replacing a
  negative target d by d + N; the reference adds them into zeros at the target rows as given and then adds `H`.
  When no target index is negative the replacement changes nothing (`GcnLayer.wrap_of_nonneg`), and adding into
  `H` is `H` plus adding into zeros (`GcnLayer.scatterAdd_eq_add_scatterAdd_zero`): the two arrays are equal.
-/
import proofs.«170774_j30116310679886_2_alg».proof.Proof.HostPrefix
import proofs.«170774_j30116310679886_2_alg».proof.Proof.GcnLayer
import proofs.«170774_j30116310679886_2_alg».proof.Proof.Gen.ReferenceIdeal.Read
import Idealize.ShloMosaic.PureOps.Ideal.Laws

noncomputable section

namespace Cert.Bridge

open Idealize.ShloMosaic
open Cert.KernelIdeal Cert.KernelIdeal.Gen Cert.KernelIdeal.HostPrefix

/-- With every target index at least zero, the kernel's combined array is the reference's. -/
theorem combined_eq_reference (H : FVec Ideal S100000x128 .f32) (E : IVec S2x1600000 32)
    (hE : ∀ e, IntOp.cmpi .sge (edgeRow ![1, 0] slices_S2x1600000_S1x1600000_1_0 E e) 0#32 = 1#1) :
    combined H E = Cert.ReferenceIdeal.Read.val_main_v14 (F := Ideal) H E := by
  unfold combined
  rw [show wrapped (edgeRow ![1, 0] slices_S2x1600000_S1x1600000_1_0 E) = edgeRow ![1, 0] slices_S2x1600000_S1x1600000_1_0 E from
    Cert.GcnLayer.wrap_of_nonneg _ _ _ (fun _ => rfl) hE]
  exact Cert.GcnLayer.scatterAdd_eq_add_scatterAdd_zero _ H (Cert.ReferenceIdeal.Read.val_main_v11 (F := Ideal)) _ _
    (fun _ => Ideal.ofBits_zero_f32)

end Cert.Bridge

end
-- ==== Proof.lean ====
/-
  A graph-convolution layer, kernel against reference, over the extended reals.

  Both programs take node features `H` (100000 × 128), an edge list `E` (2 × 1600000: sources in row 0, targets in
  row 1) and weights `W` (128 × 256), and return relu (C · W) where `C` combines each node's features with the
  features of the sources of the edges ending at it.
  * The kernel accumulates the messages into `H` on the host (a negative index d first replaced by d + 100000), then
    multiplies by `W` and clamps at zero in a launch over 20 blocks of 5000 rows, narrowing to bf16 before the product:
    at exact arithmetic the narrowing is the identity and the blocks tile the rows, so the output is
    `GcnLayer.layer C W` (`OutputArray.output_eq_layer`, `HostPrefix.V_combined`).
  * The reference accumulates the messages into zeros at the targets as given, adds `H`, multiplies and clamps:
    `GcnLayer.layer C' W` (`RefLayer.result_eq_layer`).
  * A negative target index is where the two part ways: the kernel's replacement sends the message to row d + 100000,
    the reference's accumulation drops it. The precondition therefore says, beside finiteness of the float inputs,
    that every target index is at least zero; then C = C' (`Bridge.combined_eq_reference`) by 0 + x = x alone, so
    finiteness itself is never used.
  The three frames are the generated ones (the reference's frame is its run with the result dropped), and the
  idealization rewrote nothing, so `preserves` is trivial.
-/
import proofs.«170774_j30116310679886_2_alg».proof.Defs
import proofs.«170774_j30116310679886_2_alg».proof.Proof.Gen.Kernel
import proofs.«170774_j30116310679886_2_alg».proof.Proof.Gen.Kernel.Skeleton
import proofs.«170774_j30116310679886_2_alg».proof.Proof.Gen.Kernel.Launch
import proofs.«170774_j30116310679886_2_alg».proof.Proof.Gen.Kernel.Points
import proofs.«170774_j30116310679886_2_alg».proof.Proof.Gen.Kernel.Frame
import proofs.«170774_j30116310679886_2_alg».proof.Proof.Gen.KernelIdeal
import proofs.«170774_j30116310679886_2_alg».proof.Proof.Gen.KernelIdeal.Skeleton
import proofs.«170774_j30116310679886_2_alg».proof.Proof.Gen.KernelIdeal.Launch
import proofs.«170774_j30116310679886_2_alg».proof.Proof.Gen.KernelIdeal.Points
import proofs.«170774_j30116310679886_2_alg».proof.Proof.Gen.KernelIdeal.Frame
import proofs.«170774_j30116310679886_2_alg».proof.Proof.Gen.ReferenceIdeal
import proofs.«170774_j30116310679886_2_alg».proof.Proof.Gen.Pre_finite_inputs
import proofs.«170774_j30116310679886_2_alg».proof.Proof.Gen.KernelIdeal.Value
import proofs.«170774_j30116310679886_2_alg».proof.Proof.Gen.ReferenceIdeal.Run
import proofs.«170774_j30116310679886_2_alg».proof.Proof.Gen.ReferenceIdeal.Read
import Idealize.ShloMosaic.Adequacy
import Idealize.ShloMosaic.Init
import proofs.«170774_j30116310679886_2_alg».proof.Proof.GcnLayer
import proofs.«170774_j30116310679886_2_alg».proof.Proof.OutputArray
import proofs.«170774_j30116310679886_2_alg».proof.Proof.HostPrefix
import proofs.«170774_j30116310679886_2_alg».proof.Proof.RefLayer
import proofs.«170774_j30116310679886_2_alg».proof.Proof.Domain
import proofs.«170774_j30116310679886_2_alg».proof.Proof.Bridge

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with relu (C · W) of the reference's combined array `C`: the kernel because its 20 tiles
    cover the rows and its host accumulation agrees with the reference's when no target index is negative, the
    reference by reading its operations entry by entry. -/
theorem algebraic : Cert.algebraic_KernelIdeal_ReferenceIdeal := by
  intro m ρ m' ρ' hpre hagree
  refine ⟨fun c => Cert.GcnLayer.layer
      (Cert.ReferenceIdeal.Read.val_main_v14 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1)))
      (m ((c.tc : Thread Cert.KernelIdeal.nD Cert.KernelIdeal.τ).loc Cert.KernelIdeal.main_arg2)), ?_, ?_⟩
  · refine (θ_run Cert.KernelIdeal.defs _ _).mono (fun r h c => ⟨(h c).1.trans ?_, (h c).2⟩)
      (Cert.KernelIdeal.Value.run_blocks (F := Ideal) m ρ)
    rw [Cert.KernelIdeal.OutputArray.output_eq_layer, Cert.KernelIdeal.HostPrefix.V_combined,
      Cert.KernelIdeal.Gen.V_main_arg2,
      Cert.Bridge.combined_eq_reference _ _ (fun e => Cert.Domain.targets_nonneg _ _ _ (hpre c) e)]
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v16_eq, Cert.ReferenceIdeal.RefLayer.result_eq_layer,
      (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
